-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1 : Shape := ⟨2, ![32768, 1]⟩
abbrev S4096 : Shape := ⟨1, ![4096]⟩
abbrev S_ : Shape := ⟨0, ![]⟩

class Facts : Prop where
  bcast_S_S32768x1 : S_.BroadcastsInDim S32768x1 (![] : Fin 0 → Fin S32768x1.rank)
  reducesTo_S32768x1_S_d0_1 : S32768x1.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32768x1 .f32) (main_arg1 : FVec F S4096 .f32) (main_arg2 : FVec F S4096 .f32) : IVec S_ 1 :=
  let main_v0 : FVec F S32768x1 .f32 := Host.absf main_arg0
  let main_cst : FVec F S_ .f32 := constant S_ .f32 0x7F800000#32
  let main_v1 : FVec F S32768x1 .f32 := broadcastInDim S32768x1 ![] bcast_S_S32768x1 main_cst
  let main_v2 : IVec S32768x1 1 := cmpf .olt main_v0 main_v1
  let main_c : IVec S_ 1 := constantI S_ 1 1#1
  let main_v3 : IVec S_ 1 := (fun x v => Host.reduce IntOp.andi x v reducesTo_S32768x1_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S32768x1 : Shape := ⟨2, ![32768, 1]⟩
abbrev S4096 : Shape := ⟨1, ![4096]⟩
abbrev S32768x4096 : Shape := ⟨2, ![32768, 4096]⟩
abbrev S1024x1 : Shape := ⟨2, ![1024, 1]⟩
abbrev S1024x4096 : Shape := ⟨2, ![1024, 4096]⟩
abbrev S1x4096 : Shape := ⟨2, ![1, 4096]⟩
abbrev S32768x4096x1 : Shape := ⟨3, ![32768, 4096, 1]⟩

abbrev nBuf : Space → Nat
  | .hbm => 5
  | .vmem => 6
  | .smem => 0
  | _ => 0

abbrev bufTy : (tb : Table) → Fin (tcTables nBuf tb) → BufTy
  | .hbm, ⟨0, _⟩ => ⟨S32768x1, .f32⟩
  | .hbm, ⟨1, _⟩ => ⟨S4096, .f32⟩
  | .hbm, ⟨2, _⟩ => ⟨S4096, .f32⟩
  | .hbm, ⟨3, _⟩ => ⟨S32768x4096, .f32⟩
  | .hbm, ⟨4, _⟩ => ⟨S32768x4096x1, .f32⟩
  | .local _ .vmem, ⟨0, _⟩ => ⟨S1024x1, .f32⟩
  | .local _ .vmem, ⟨1, _⟩ => ⟨S1024x1, .f32⟩
  | .local _ .vmem, ⟨2, _⟩ => ⟨S4096, .f32⟩
  | .local _ .vmem, ⟨3, _⟩ => ⟨S4096, .f32⟩
  | .local _ .vmem, ⟨4, _⟩ => ⟨S1024x4096, .f32⟩
  | .local _ .vmem, ⟨5, _⟩ => ⟨S1024x4096, .f32⟩
  | _, _ => ⟨S32768x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x1_S1024x1_0_0 : ∀ a, (![0, 0] : Fin 2 → Nat) a + S1024x1.size a ≤ S1024x1.size a
  h_S1024x1 : 0 < S1024x1.numel
  inb_S4096_S4096_0 : ∀ a, (![0] : Fin 1 → Nat) a + S4096.size a ≤ S4096.size a
  h_S4096 : 0 < S4096.numel
  shapeCasts_S4096_S1x4096 : S4096.ShapeCasts S1x4096
  broadcasts_S1024x1_S1024x4096 : S1024x1.Broadcasts S1024x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  bcast_S32768x4096_S32768x4096x1_0_1 : S32768x4096.BroadcastsInDim S32768x4096x1 (![0, 1] : Fin 2 → Fin S32768x4096x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S32768x1.size a
  hwx0_0 : ∀ i : grid0.Coords, EltTy.bits .f32 = 32 ∨ (Rect.block (s := S32768x1) S1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S32768x4096.size a
  hwx0_3 : ∀ i : grid0.Coords, EltTy.bits .f32 = 32 ∨ (Rect.block (s := S32768x4096) S1024x4096.size (cc0_transform_3 i) (hinb0_3 i)).WholeWords (EltTy.packing .f32)

variable [Facts₀]

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1 : Shape := ⟨2, ![32768, 1]⟩
abbrev S4096 : Shape := ⟨1, ![4096]⟩
abbrev S32768x1x1 : Shape := ⟨3, ![32768, 1, 1]⟩
abbrev S1x4096x1 : Shape := ⟨3, ![1, 4096, 1]⟩
abbrev S32768x4096x1 : Shape := ⟨3, ![32768, 4096, 1]⟩

abbrev nBuf : Space → Nat
  | .hbm => 11
  | .vmem => 0
  | .smem => 0
  | _ => 0

abbrev bufTy : (tb : Table) → Fin (tcTables nBuf tb) → BufTy
  | .hbm, ⟨0, _⟩ => ⟨S32768x1, .f32⟩
  | .hbm, ⟨1, _⟩ => ⟨S4096, .f32⟩
  | .hbm, ⟨2, _⟩ => ⟨S4096, .f32⟩
  | .hbm, ⟨3, _⟩ => ⟨S32768x1x1, .f32⟩
  | .hbm, ⟨4, _⟩ => ⟨S1x4096x1, .f32⟩
  | .hbm, ⟨5, _⟩ => ⟨S32768x4096x1, .f32⟩
  | .hbm, ⟨6, _⟩ => ⟨S32768x4096x1, .f32⟩
  | .hbm, ⟨7, _⟩ => ⟨S32768x4096x1, .f32⟩
  | .hbm, ⟨8, _⟩ => ⟨S1x4096x1, .f32⟩
  | .hbm, ⟨9, _⟩ => ⟨S32768x4096x1, .f32⟩
  | .hbm, ⟨10, _⟩ => ⟨S32768x4096x1, .f32⟩
  | _, _ => ⟨S32768x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S32768x1_S32768x1x1_0_2 : S32768x1.BroadcastsInDim S32768x1x1 (![0, 2] : Fin 2 → Fin S32768x1x1.rank)
  bcast_S4096_S1x4096x1_1 : S4096.BroadcastsInDim S1x4096x1 (![1] : Fin 1 → Fin S1x4096x1.rank)
  bcast_S32768x1x1_S32768x4096x1_0_1_2 : S32768x1x1.BroadcastsInDim S32768x4096x1 (![0, 1, 2] : Fin 3 → Fin S32768x4096x1.rank)
  bcast_S1x4096x1_S32768x4096x1_0_1_2 : S1x4096x1.BroadcastsInDim S32768x4096x1 (![0, 1, 2] : Fin 3 → Fin S32768x4096x1.rank)

variable [Facts₀]

class Facts : Prop extends Facts₀ where

variable [Facts]
-- ==== Proof.RowAffine.lean ====
/-
  The function both programs compute: from a column `q` of `n` numbers and two vectors `w`, `b` of `k` numbers,
  the `n × k` table whose entry `(r, j)` is `q r · w j + b j` — every row is the same affine map `x ↦ x · w + b`
  applied, coordinate by coordinate, to that row's one number. `table` is the flat `n × k` form, `table3` the same
  numbers with a trailing axis of extent one. The operations are the float instance's own product and sum, taken in
  one fixed order (product first, then the sum), so nothing here depends on which instance reads them.
  Also the three ways an operand is spread over the table, each read at one entry: a column repeated along the
  rows' direction, a vector laid as a single row, and that row repeated for every row.
-/
import Idealize.ShloMosaic.PureOps.Ideal
import Idealize.ShloMosaic.Lib.ValueIdx
import Idealize.ShloMosaic.Lib.Pipeline.Value
import Idealize.ShloMosaic.Lib.ValueLayout

noncomputable section

namespace Cert.RowAffine

open Idealize.ShloMosaic Idealize.ShloMosaic.ValueIdx

variable {F : FTy → Type} [FloatOps F]

/-- Entry `(r, j)` of the table: `q r · w j + b j`. -/
def table {n k : Nat} (q : (⟨2, ![n, 1]⟩ : Shape).Idx → Elt F .f32) (w b : (⟨1, ![k]⟩ : Shape).Idx → Elt F .f32) :
    (⟨2, ![n, k]⟩ : Shape).Idx → Elt F .f32 :=
  fun i => FloatOps.addf (FloatOps.mulf (q (ix2 (i 0) (0 : Fin 1))) (w (ix1 (i 1)))) (b (ix1 (i 1)))

/-- The same table with a trailing axis of extent one: entry `(r, j, 0)` is entry `(r, j)`. -/
def table3 {n k : Nat} (q : (⟨2, ![n, 1]⟩ : Shape).Idx → Elt F .f32) (w b : (⟨1, ![k]⟩ : Shape).Idx → Elt F .f32) :
    (⟨3, ![n, k, 1]⟩ : Shape).Idx → Elt F .f32 :=
  fun i => table q w b (ix2 (i 0) (i 1))

theorem table_apply {n k : Nat} (q : (⟨2, ![n, 1]⟩ : Shape).Idx → Elt F .f32) (w b : (⟨1, ![k]⟩ : Shape).Idx → Elt F .f32)
    (r : Fin n) (j : Fin k) :
    table q w b (ix2 r j) = FloatOps.addf (FloatOps.mulf (q (ix2 r (0 : Fin 1))) (w (ix1 j))) (b (ix1 j)) := rfl

/-- A column `[a, 1]` repeated to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.RowAffine

end
-- ==== Proof.KernelBlocks.lean ====
/-
  The kernel's table, block by block. The grid has 32 points; point `t` is handed rows `1024·t … 1024·t + 1023` of the
  column `q`, all of `w` and all of `b`, and writes rows `1024·t … 1024·t + 1023` of the `32768 × 4096` output. Inside a
  block the body spreads the column along the rows' direction, lays `w` and `b` as rows repeated for every row, and takes
  product then sum: entry `(p, j)` of the block is `q (1024·t + p) · w j + b j`, which is entry `(1024·t + p, j)` of
  `RowAffine.table`. The 32 blocks tile the output (row `r` lies in block `r / 1024`), so after the last point the output
  array is the whole table.
-/
import proofs.«146090_j19129784336473_2_alg».proof.Proof.Gen.KernelIdeal.Frame
import proofs.«146090_j19129784336473_2_alg».proof.Proof.RowAffine
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx
open Cert.RowAffine

variable {F : FTy → Type} [FloatOps F]
variable (m : (ℓ : Loc nD τ sig) → Buf (Elt F) ℓ) (ρ : Dev nD → PrngReg)

/-- Entry `(p, j)` of what the body stores, from the three blocks it loaded: `x0 (p, 0) · x1 j + x2 j`. -/
theorem payload_apply (x0 : Vec F S1024x1 .f32) (x1 x2 : Vec F S4096 .f32) (p : Fin 1024) (j : Fin 4096) :
    k0_pay1 x0 x1 x2 (ix2 p j) = FloatOps.addf (FloatOps.mulf (x0 (ix2 p (0 : Fin 1))) (x1 (ix1 j))) (x2 (ix1 j)) := by
  unfold k0_pay1
  show FloatOps.addf (FloatOps.mulf (broadcastTo S1024x4096 x0 _ (ix2 p j)) (broadcastTo S1024x4096 (shapeCast S1x4096 x1 _) _ (ix2 p j)))
      (broadcastTo S1024x4096 (shapeCast S1x4096 x2 _) _ (ix2 p j)) = _
  rw [broadcastTo_a1_ab_apply, broadcastTo_1b_ab_apply, broadcastTo_1b_ab_apply, shapeCast_a_1a_apply, shapeCast_a_1a_apply]

theorem zero2 : (![0, 0] : Fin 2 → Nat) = fun _ => 0 := funext fun a => by fin_cases a <;> rfl
theorem zero1 : (![0] : Fin 1 → Nat) = fun _ => 0 := funext fun a => by fin_cases a; rfl

/-- Where each window's block sits at point `t`, decided over the 32 points: the column's block and the output's block
    share their row-block number, which is below 32; every other block number is zero. -/
theorem block_numbers : ∀ t : Fin cfg0.N, win0_0.index t (0 : Fin 2) = win0_3.index t (0 : Fin 2)
    ∧ win0_0.index t (1 : Fin 2) = 0
    ∧ win0_1.index t (0 : Fin 1) = 0
    ∧ win0_2.index t (0 : Fin 1) = 0
    ∧ win0_3.index t (0 : Fin 2) ≤ 31
    ∧ win0_3.index t (1 : Fin 2) = 0 :=
  (by decide +kernel : ∀ t : Fin grid0.N, _)

/-- Every row-block number below 32 is some point's. -/
theorem block_numbers_onto : ∀ a : Fin 32, ∃ t : Fin cfg0.N, win0_3.index t = ![a.val, 0] :=
  (by decide +kernel : ∀ a : Fin 32, ∃ t : Fin grid0.N, win0_3.index t = ![a.val, 0])

/-- What point `t` writes back is block `t` of the table of the three arrays as the region finds them. -/
theorem flushed_eq (c : Dev nD) (t : Fin cfg0.N) :
    (dats m 0 c).flushed 3 t
      = ((cfg0.win 3).blk t).view.read (Elt F) (table (V m c main_arg0) (V m c main_arg1) (V m c main_arg2)) := by
  show (cfg0.win 3).cut (grid0.coords t) ((dats m 0 c).after 3 t) = _
  rw [after0_3]
  unfold out0_3
  rw [View.canon_unit_zero zero2]
  simp only [View.ld_unit_zero (S := S1024x1) zero2, View.ld_unit_zero (S := S4096) zero1]
  obtain ⟨e0, e1, e2, e3, e4, e5⟩ := block_numbers t
  funext y
  obtain ⟨p, j, rfl⟩ : ∃ (p : Fin 1024) (j : Fin 4096), y = ix2 p j := ⟨y 0, y 1, eq_ix2 y⟩
  refine (payload_apply _ _ _ p j).trans ?_
  show FloatOps.addf (FloatOps.mulf (V m c main_arg0 (((cfg0.win 0).blk t).view.emb (ix2 p (0 : Fin 1))))
        (V m c main_arg1 (((cfg0.win 1).blk t).view.emb (ix1 j)))) (V m c main_arg2 (((cfg0.win 2).blk t).view.emb (ix1 j)))
      = table (V m c main_arg0) (V m c main_arg1) (V m c main_arg2) (((cfg0.win 3).blk t).view.emb (ix2 p j))
  have h0 : ((cfg0.win 0).blk t).view.emb (ix2 p (0 : Fin 1))
      = (ix2 ((((cfg0.win 3).blk t).view.emb (ix2 p j)) 0) (0 : Fin 1) : S32768x1.Idx) := by
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 1 + 1 * 0 = 0; omega
  have h1 : ((cfg0.win 1).blk t).view.emb (ix1 j)
      = (ix1 ((((cfg0.win 3).blk t).view.emb (ix2 p j)) 1) : S4096.Idx) := by
    funext a; apply Fin.ext
    match a with
    | ⟨0, _⟩ => show win0_1.index t (0 : Fin 1) * 4096 + 1 * j.val = win0_3.index t (1 : Fin 2) * 4096 + 1 * j.val; omega
  have h2 : ((cfg0.win 2).blk t).view.emb (ix1 j)
      = (ix1 ((((cfg0.win 3).blk t).view.emb (ix2 p j)) 1) : S4096.Idx) := by
    funext a; apply Fin.ext
    match a with
    | ⟨0, _⟩ => show win0_2.index t (0 : Fin 1) * 4096 + 1 * j.val = win0_3.index t (1 : Fin 2) * 4096 + 1 * j.val; omega
  rw [h0, h1, h2]
  rfl

/-- A row-column pair of the output is in point `t`'s block iff each coordinate is in the block's range on its axis. -/
theorem mem_block (t : Fin cfg0.N) (i : S32768x4096.Idx) :
    i ∈ ((cfg0.win 3).blk t).view.set
      ↔ ∀ a : Fin 2, win0_3.index t a * S1024x4096.size a ≤ (i a).val ∧ (i a).val < win0_3.index t a * S1024x4096.size a + S1024x4096.size a := by
  show i ∈ ((View.whole main_v0).slice (win0_3.rect t)).set ↔ _
  rw [View.set_slice_whole, Rect.mem_set_unit]
  exact Iff.rfl

/-- The 32 blocks tile the output: row `r` lies in the block of the point whose row-block number is `r / 1024`. -/
theorem covered (i : S32768x4096.Idx) :
    ∃ t : Fin cfg0.N, (cfg0.win 3).flush t = true ∧ i ∈ ((cfg0.win 3).blk t).view.set := by
  have hi0 : (i 0).val < 32768 := (i 0).isLt
  have hi1 : (i 1).val < 4096 := (i 1).isLt
  obtain ⟨t, ht⟩ := block_numbers_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 4096 ≤ (i 1).val ∧ (i 1).val < win0_3.index t (1 : Fin 2) * 4096 + 4096; omega

/-- After the last point the output array is the table of the three argument arrays. -/
theorem final (c : Dev nD) :
    (dats m 0 c).arrAt 3 cfg0.N
      = table (m ((c : Thread nD τ).loc main_arg0)) (m ((c : Thread nD τ).loc main_arg1)) (m ((c : Thread nD τ).loc main_arg2)) :=
  (dats m 0 c).arrAt_eq_of_cover 3 _ (fun t _ => flushed_eq m c t) covered

end Cert.KernelIdeal.Blocks

end
-- ==== Proof.KernelRun.lean ====
/-
  The kernel program's run, read as a value. After the region the program has one more line: the `32768 × 4096` output is
  given a trailing axis of extent one, entry `(r, j, 0)` of the result being entry `(r, j)` of the output. The region
  leaves the output array at `RowAffine.table` of the three arguments (`Blocks.final`), so the result is
  `RowAffine.table3` of them, and the arguments are as they were.
-/
import proofs.«146090_j19129784336473_2_alg».proof.Proof.Gen.KernelIdeal.Frame
import proofs.«146090_j19129784336473_2_alg».proof.Proof.KernelBlocks
import Idealize.ShloMosaic.Lib.Pipeline.Value
import Idealize.ShloMosaic.Lib.StableHlo.Run

noncomputable section

namespace Cert.KernelIdeal.Table

open Cert.KernelIdeal Cert.KernelIdeal.Gen Idealize.ShloMosaic Idealize.ShloMosaic.TcCoe Idealize.SL.Sem
open Idealize.ShloMosaic.Pipeline (Dat)
open Idealize.ShloMosaic.ValueIdx
open Cert.RowAffine

variable {F : FTy → Type} [FloatOps F]
variable (m : (ℓ : Loc nD τ sig) → Buf (Elt F) ℓ) (ρ : Dev nD → PrngReg)

/-- A table given a trailing axis of extent one reads, at `(r, j, u)`, the table at `(r, j)`. -/
theorem trailing_unit (x : S32768x4096.Idx → Elt F .f32) :
    broadcastInDim S32768x4096x1 ![0, 1] bcast_S32768x4096_S32768x4096x1_0_1 x = fun i => x (ix2 (i 0) (i 1)) := by
  funext i
  exact broadcastInDim_apply _ bcast_S32768x4096_S32768x4096x1_0_1 x i (ix2 (i 0) (i 1)) (fun a => match a with
    | ⟨0, _⟩ => by show (i 0).val = if (32768 : Nat) = 1 then 0 else (i 0).val; rw [if_neg (by decide)]
    | ⟨1, _⟩ => by show (i 1).val = if (4096 : Nat) = 1 then 0 else (i 1).val; rw [if_neg (by decide)])

/-- The program's result buffer after the line that follows the region: the output array as the region leaves it,
    with its trailing unit axis. -/
theorem tail_eq (c : Dev nD) :
    Pipeline.afterTail₀ cfgs (dats m) 0 (V0 m) [hostOps1] c main_v1
      = broadcastInDim S32768x4096x1 ![0, 1] bcast_S32768x4096_S32768x4096x1_0_1 ((dats m 0 c).arrAt 3 cfg0.N) := by
  unfold Pipeline.afterTail₀
  show StableHlo.after hostOps1 _ (Proc.devRef .tc main_v1) = _
  after_results
  exact congrArg _ (Pipeline.withArrays_arr spec0 launch0.win.arr_inj c _ _ 3)

/-- The result buffer is no array of the region and is not scoped: the region leaves it to the line after it. -/
theorem result_rest : main_v1 ∈ Pipeline.restRefs sig cfg0.spec :=
  Pipeline.mem_restRefs_of main_v1 rfl (by decide)

/-- Every weakly fair execution of the kernel program ends with the result at the table (trailing unit axis) of the
    three arguments, and the arguments unchanged. -/
theorem run : θ_run defs (onTc (τ := τ) (main (F := F))) ⟨m, fun _ => 0, ρ⟩ fun r => ∀ c : Dev nD,
      r.2.mem ((c : Thread nD τ).loc main_v1)
        = table3 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by
      rw [(h c).2 main_v1 result_rest, tail_eq, Blocks.final, trailing_unit]
      rfl,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Table

end
-- ==== Proof.RefTable.lean ====
/-
  The reference's table. The reference spreads `q` (as `[32768, 1, 1]`), `w` and `b` (each as `[1, 4096, 1]`) to the full
  `[32768, 4096, 1]` shape and then takes product and sum entry by entry. Read at an entry `(r, j, 0)`, the three spread
  operands are `q (r, 0)`, `w j` and `b j`, so the result is `RowAffine.table3`: `q r · w j + b j`.
-/
import proofs.«146090_j19129784336473_2_alg».proof.Proof.Gen.ReferenceIdeal.Read
import proofs.«146090_j19129784336473_2_alg».proof.Proof.RowAffine
import Idealize.ShloMosaic.Lib.ValueIdx

noncomputable section

namespace Cert.ReferenceIdeal.Table

open Cert.ReferenceIdeal Cert.ReferenceIdeal.Read Idealize.ShloMosaic Idealize.ShloMosaic.ValueIdx
open Cert.RowAffine

variable {F : FTy → Type} [FloatOps F]

/-- The reference's last stage, as a function of the three arguments, is the table with its trailing unit axis. -/
theorem result_eq (x0 : (⟨S32768x1, .f32⟩ : BufTy).Contents (Elt F)) (x1 x2 : (⟨S4096, .f32⟩ : BufTy).Contents (Elt F)) :
    val_main_v7 (F := F) x0 x1 x2 = table3 x0 x1 x2 := by
  funext i
  rw [val_main_v7_apply, val_main_v4_apply, val_main_v2_apply, val_main_v0_apply, val_main_v3_apply, val_main_v1_apply,
    val_main_v6_apply, val_main_v5_apply]
  have e0 : idx_main_v0 (idx_main_v2 i) = ix2 (i 0) (0 : Fin 1) :=
    funext fun a => Fin.ext (by match a with | ⟨0, _⟩ => rfl | ⟨1, _⟩ => rfl)
  have e1 : idx_main_v1 (idx_main_v3 i) = ix1 (i 1) :=
    funext fun a => Fin.ext (by match a with | ⟨0, _⟩ => rfl)
  have e2 : idx_main_v5 (idx_main_v6 i) = ix1 (i 1) :=
    funext fun a => Fin.ext (by match a with | ⟨0, _⟩ => rfl)
  rw [e0, e1, e2]
  rfl

end Cert.ReferenceIdeal.Table

end
-- ==== Proof.lean ====
/-
  The kernel program and the reference compute one table. From a column `q` of 32768 numbers and two vectors `w`, `b`
  of 4096 numbers, both produce the `32768 × 4096 × 1` array whose entry `(r, j, 0)` is `q r · w j + b j`
  (Proof/RowAffine.lean).
  The kernel does it 1024 rows at a time: its 32 blocks tile the `32768 × 4096` output, each block the table's rows for
  that block (Proof/KernelBlocks.lean), and one line after the region adds the trailing unit axis
  (Proof/KernelRun.lean). The reference spreads the three operands to the full shape and combines them entry by entry
  (Proof/RefTable.lean). Both take the product first and then the sum, so the two results are the same expression of the
  same numbers: no law of arithmetic is used and the inputs' finiteness is never needed.
  The idealized kernel is the kernel's own text read over the extended reals (no operation was rewritten), so the
  preservation claim is trivial; each program's frame claim is its run with the result forgotten.
-/
import proofs.«146090_j19129784336473_2_alg».proof.Defs
import proofs.«146090_j19129784336473_2_alg».proof.Proof.Gen.Kernel
import proofs.«146090_j19129784336473_2_alg».proof.Proof.Gen.Kernel.Frame
import proofs.«146090_j19129784336473_2_alg».proof.Proof.Gen.KernelIdeal
import proofs.«146090_j19129784336473_2_alg».proof.Proof.Gen.KernelIdeal.Frame
import proofs.«146090_j19129784336473_2_alg».proof.Proof.Gen.ReferenceIdeal
import proofs.«146090_j19129784336473_2_alg».proof.Proof.Gen.Pre_finite_inputs
import proofs.«146090_j19129784336473_2_alg».proof.Proof.Gen.ReferenceIdeal.Run
import proofs.«146090_j19129784336473_2_alg».proof.Proof.Gen.ReferenceIdeal.Read
import proofs.«146090_j19129784336473_2_alg».proof.Proof.KernelRun
import proofs.«146090_j19129784336473_2_alg».proof.Proof.RefTable
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the table `q r · w j + b j` (trailing unit axis) of their arguments; the arguments agree, so
    the results are equal. -/
theorem algebraic : Cert.algebraic_KernelIdeal_ReferenceIdeal := by
  intro m ρ m' ρ' _ hagree
  refine ⟨_, Cert.KernelIdeal.Table.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Table.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
